-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 31
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000x128, .bf16⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .bf16⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S128x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostArrays.lean ====
/-
  What the host operations before the kernel leave in the five arrays the kernel reads, on the extended reals.

  The aggregate: the kernel's program rounds the node features to the narrower format before gathering them by
  the column indices and widens the gathered rows again; on the extended reals both changes of format are the
  identity, so the scatter-added products are the reference's own aggregate, term for term. The weights arrive
  transposed, and the bias, scale and offset as one-row matrices.
-/
import proofs.«126476_j43997644981190_2_alg».proof.Proof.Gen.KernelIdeal.Frame
import proofs.«126476_j43997644981190_2_alg».proof.Proof.Gen.ReferenceIdeal.Read
import Idealize.ShloMosaic.Lib.StableHlo.Run
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The aggregated features the kernel is launched on are the reference's aggregate of the same four arguments. -/
theorem V_aggregate (c : Dev nD) :
    (V m c main_v14 : S50000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results_simp <;> rfl

/-- The same, with the array named as the feature window names it. -/
theorem V_aggregate' (c : Dev nD) :
    (V m c (Pipeline.arrRef spec0 0) : S50000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) :=
  V_aggregate m c

/-- The weights the kernel is launched on, at `(k, j)`: the given matrix at `(j, k)`. -/
theorem V_weights_apply (c : Dev nD) (k j : Fin 128) :
    (V m c main_v15 : S128x128.Idx → EReal) (ix2 k j) = (m ((c : Thread nD τ).loc main_arg4) : S128x128.Idx → EReal) (ix2 j k) := by
  have e : (V m c main_v15 : S128x128.Idx → EReal)
      = transpose S128x128 [1, 0] (m ((c : Thread nD τ).loc main_arg4) : S128x128.Idx → EReal) Gen.transposes_S128x128_S128x128_1_0 := by
    dsimp only [Gen.V, Gen.hostOps0]
    after_results_simp <;> rfl
  rw [e]
  exact transpose_ix2_apply _ _ k j

/-- The bias row the kernel is launched on, at `(0, j)`: the bias at `j`. -/
theorem V_bias_apply (c : Dev nD) (u : Fin 1) (j : Fin 128) :
    (V m c main_v16 : S1x128.Idx → EReal) (ix2 u j) = (m ((c : Thread nD τ).loc main_arg5) : S128.Idx → EReal) (ix1 j) := by
  have e : (V m c main_v16 : S1x128.Idx → EReal)
      = shapeCast S1x128 (m ((c : Thread nD τ).loc main_arg5) : S128.Idx → EReal) Gen.shapeCasts_S128_S1x128 := by
    dsimp only [Gen.V, Gen.hostOps0]
    after_results_simp <;> rfl
  rw [e]
  exact shapeCast_a_1a_apply _ _ u j

/-- The scale row, likewise. -/
theorem V_scale_apply (c : Dev nD) (u : Fin 1) (j : Fin 128) :
    (V m c main_v17 : S1x128.Idx → EReal) (ix2 u j) = (m ((c : Thread nD τ).loc main_arg6) : S128.Idx → EReal) (ix1 j) := by
  have e : (V m c main_v17 : S1x128.Idx → EReal)
      = shapeCast S1x128 (m ((c : Thread nD τ).loc main_arg6) : S128.Idx → EReal) Gen.shapeCasts_S128_S1x128 := by
    dsimp only [Gen.V, Gen.hostOps0]
    after_results_simp <;> rfl
  rw [e]
  exact shapeCast_a_1a_apply _ _ u j

/-- The offset row, likewise. -/
theorem V_offset_apply (c : Dev nD) (u : Fin 1) (j : Fin 128) :
    (V m c main_v18 : S1x128.Idx → EReal) (ix2 u j) = (m ((c : Thread nD τ).loc main_arg7) : S128.Idx → EReal) (ix1 j) := by
  have e : (V m c main_v18 : S1x128.Idx → EReal)
      = shapeCast S1x128 (m ((c : Thread nD τ).loc main_arg7) : S128.Idx → EReal) Gen.shapeCasts_S128_S1x128 := by
    dsimp only [Gen.V, Gen.hostOps0]
    after_results_simp <;> rfl
  rw [e]
  exact shapeCast_a_1a_apply _ _ u j

end Cert.KernelIdeal.HostArrays

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowOps.lean ====
/-
  The kernel body's operations that are not entry-by-entry, each read at an index written by coordinates,
  on the extended reals: the product of a 5000-row block with the 128 × 128 weights is a sum over the shared
  axis, a sum along a row is a sum over its 128 columns, and the re-layings of a per-row value (to a column,
  and back over the columns) and of a per-column parameter (its one row over all rows) read one entry.
-/
import proofs.«126476_j43997644981190_2_alg».proof.Proof.Gen.KernelIdeal
import proofs.«126476_j43997644981190_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowOps

open Cert.KernelIdeal Cert.KernelIdeal.Facts₀ Idealize.ShloMosaic Idealize.ShloMosaic.ValueIdx

/-- The left operand's index at output `i` and contraction index `c`: row `i 0`, -/
theorem lhsIdx_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- column the contraction coordinate; -/
theorem lhsIdx_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- the right operand's: row the contraction coordinate, -/
theorem rhsIdx_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- column `i 1`. -/
theorem rhsIdx_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `p` and column `q`: the sum over the contracted axis of
    the left operand's row `p` times the right operand's column `q`. -/
theorem matmul_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsIdx_0 _ _
    | ⟨1, _⟩ => exact (lhsIdx_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsIdx_0 _ _).trans hk
    | ⟨1, _⟩ => exact rhsIdx_1 _ _)
  rw [el, er]

/-- A sum along the rows, at row `p`: the sum of that row's 128 entries. -/
theorem rowSum_apply (v : FVec Ideal S5000x128 .f32) (hφ : FTy.f32 = FTy.f32 ∨ FTy.f32 = FTy.bf16) (hacc : (0x00000000#32 : BitVec 32) = 0x00000000#32) (p : Fin 5000) :
    multiReduction .add [1] S5000 v 0x00000000#32 reduces_S5000x128_S5000 hφ hacc (ix1 p) = ∑ k : Fin 128, v (ix2 p k) :=
  (Ideal.multiReduction_add_single v 0x00000000#32 reduces_S5000x128_S5000 hφ hacc (ix1 p)).trans
    (Finset.sum_congr rfl fun k _ => congrArg v (funext fun a => Fin.ext (by match a with | ⟨0, _⟩ => rfl | ⟨1, _⟩ => rfl)))

/-- A per-row value laid as a column, at `(p, 0)`: the value of row `p`. -/
theorem column_apply (v : FVec Ideal S5000 .f32) (p : Fin 5000) (u : Fin 1) :
    shapeCast S5000x1 v shapeCasts_S5000_S5000x1 (ix2 p u) = v (ix1 p) :=
  Cert.LibColumn.shapeCast_a_a1_apply v shapeCasts_S5000_S5000x1 p u

/-- A column spread over the 128 columns, at `(p, q)`: the column's entry of row `p`. -/
theorem spreadColumn_apply (v : FVec Ideal S5000x1 .f32) (p : Fin 5000) (q : Fin 128) :
    broadcastTo S5000x128 v broadcasts_S5000x1_S5000x128 (ix2 p q) = v (ix2 p (0 : Fin 1)) :=
  Cert.LibColumn.broadcastTo_a1_ab_apply v broadcasts_S5000x1_S5000x128 p q

/-- A one-row parameter spread over the 5000 rows, at `(p, q)`: the parameter's entry of column `q`. -/
theorem spreadRow_apply (v : FVec Ideal S1x128 .f32) (p : Fin 5000) (q : Fin 128) :
    broadcastTo S5000x128 v broadcasts_S1x128_S5000x128 (ix2 p q) = v (ix2 (0 : Fin 1) q) :=
  broadcastTo_1b_ab_apply v broadcasts_S1x128_S5000x128 p q

/-- The reciprocal square root of a vector, entry by entry. -/
theorem rsqrt_apply {s : Shape} (v : FVec Ideal s .f32) (i : s.Idx) : rsqrt v i = Ideal.rsqrt (v i) := rfl

end Cert.KernelIdeal.RowOps

end
-- ==== Proof.RowNorm.lean ====
/-
  The function both programs compute, one output row at a time, on the extended reals.

  A row `x` of the aggregated features (128 entries) goes through a linear layer with weights `W` (entry
  `W k j` multiplies input feature `k` into output feature `j`) and bias `b`, then the rectifier
  `max · 0`; the rectified row `a` is centred by its mean (its sum divided by the width 128), the centred row's
  mean square plus a small constant goes under a reciprocal square root, and the result is
  `(a j - mean a) * s j * rsqrt (var a) + o j` with a per-feature scale `s` and offset `o`.

  The three float literals (zero, the width 128.0, and the small constant) are kept as the words both programs
  print: the same word on both sides is never evaluated.
-/
import Idealize.ShloMosaic.PureOps.Ideal
import Idealize.ShloMosaic.Lib.ValueIdx

noncomputable section

namespace Cert.RowNorm

open Idealize.ShloMosaic

/-- The rectifier's floor, `0.0`. -/
abbrev floorWord : EReal := Ideal.ofBits .f32 0x00000000#32
/-- The row width as a float, `128.0`. -/
abbrev widthWord : EReal := Ideal.ofBits .f32 0x43000000#32
/-- The constant added to the variance, the float nearest `1e-10`. -/
abbrev epsWord : EReal := Ideal.ofBits .f32 0x2EDBE6FF#32

/-- The linear layer then the rectifier, at output feature `j`: `max (∑ k, x k * W k j + b j) 0`. -/
def act (x : Fin 128 → EReal) (W : Fin 128 → Fin 128 → EReal) (b : Fin 128 → EReal) (j : Fin 128) : EReal :=
  max ((∑ k : Fin 128, x k * W k j) + b j) floorWord

/-- A row's mean: its sum divided by the width. -/
def mean (a : Fin 128 → EReal) : EReal := Ideal.div (∑ j : Fin 128, a j) widthWord

/-- A row's entry less the row's mean. -/
def dev (a : Fin 128 → EReal) (j : Fin 128) : EReal := a j - mean a

/-- The reciprocal square root of the row's biased variance plus the small constant. -/
def invStd (a : Fin 128 → EReal) : EReal := Ideal.rsqrt (mean (fun j => dev a j * dev a j) + epsWord)

/-- The normalized, scaled and shifted row at feature `j`. -/
def out (a s o : Fin 128 → EReal) (j : Fin 128) : EReal := dev a j * s j * invStd a + o j

/-! ## The whole result array -/

open Idealize.ShloMosaic.ValueIdx

/-- Entry `(r, j)` of the result from the aggregated features `A` (50000 rows of 128), the weight matrix `W` as
    the programs receive it (its entry `(j, k)` multiplies input feature `k` into output feature `j`), and the
    bias, scale and offset vectors: the row function of row `r` of `A`. Row `r` of the result depends on row `r`
    of `A` only, which is why any tiling of the rows computes the same array. -/
def entry (A : (⟨2, ![50000, 128]⟩ : Shape).Idx → EReal) (W : (⟨2, ![128, 128]⟩ : Shape).Idx → EReal)
    (b s o : (⟨1, ![128]⟩ : Shape).Idx → EReal) (r : Fin 50000) (j : Fin 128) : EReal :=
  out (act (fun k => A (ix2 r k)) (fun k j' => W (ix2 j' k)) (fun j' => b (ix1 j')))
    (fun j' => s (ix1 j')) (fun j' => o (ix1 j')) j

/-- The result array, index by index. -/
def whole (A : (⟨2, ![50000, 128]⟩ : Shape).Idx → EReal) (W : (⟨2, ![128, 128]⟩ : Shape).Idx → EReal)
    (b s o : (⟨1, ![128]⟩ : Shape).Idx → EReal) : (⟨2, ![50000, 128]⟩ : Shape).Idx → EReal :=
  fun i => entry A W b s o ⟨(i 0).val, idx2_lt0 i⟩ ⟨(i 1).val, idx2_lt1 i⟩

theorem whole_ix2 (A : (⟨2, ![50000, 128]⟩ : Shape).Idx → EReal) (W : (⟨2, ![128, 128]⟩ : Shape).Idx → EReal)
    (b s o : (⟨1, ![128]⟩ : Shape).Idx → EReal) (r : Fin 50000) (j : Fin 128) :
    whole A W b s o (ix2 r j) = entry A W b s o r j := rfl

end Cert.RowNorm

end
-- ==== Proof.Payload.lean ====
/-
  The kernel body's stored value at row `p` and column `q` of its block is the row function
  (`RowNorm.out` of `RowNorm.act`) of row `p` of the loaded feature block, the loaded weights, and the three
  loaded one-row parameters: every entry-by-entry operation is pushed to the index, the two roundings to the
  narrower float format are the identity on the extended reals, the matrix product and the two row sums become
  finite sums, and what is left is the row function's own text.
-/
import proofs.«126476_j43997644981190_2_alg».proof.Proof.Gen.KernelIdeal.Skeleton
import proofs.«126476_j43997644981190_2_alg».proof.Proof.RowOps
import proofs.«126476_j43997644981190_2_alg».proof.Proof.RowNorm

noncomputable section

namespace Cert.KernelIdeal.Payload

open Cert.KernelIdeal Cert.KernelIdeal.Gen Idealize.ShloMosaic Idealize.ShloMosaic.ValueIdx

theorem pay_apply (x0 : Vec Ideal S5000x128 .f32) (x1 : Vec Ideal S128x128 .f32) (x2 x3 x4 : Vec Ideal S1x128 .f32)
    (p : Fin 5000) (q : Fin 128) :
    k0_pay1 (F := Ideal) x0 x1 x2 x3 x4 (ix2 p q)
      = Cert.RowNorm.out
          (Cert.RowNorm.act (fun k => x0 (ix2 p k)) (fun k j => x1 (ix2 k j)) (fun j => x2 (ix2 (0 : Fin 1) j)))
          (fun j => x3 (ix2 (0 : Fin 1) j)) (fun j => x4 (ix2 (0 : Fin 1) j)) q := by
  unfold k0_pay1
  simp only [shapeCast_self, addf_apply, mulf_apply, subf_apply, maximumf_apply, divf_apply, broadcast_apply, truncf_apply,
    RowOps.spreadRow_apply, RowOps.spreadColumn_apply, RowOps.column_apply, RowOps.matmul_apply, RowOps.rsqrt_apply]
  rw [RowOps.rowSum_apply, RowOps.rowSum_apply]
  simp only [addf_apply, mulf_apply, subf_apply, maximumf_apply, divf_apply, broadcast_apply, truncf_apply,
    RowOps.spreadRow_apply, RowOps.spreadColumn_apply, RowOps.column_apply, RowOps.matmul_apply]
  rw [RowOps.rowSum_apply]
  simp only [addf_apply, maximumf_apply, broadcast_apply, truncf_apply, RowOps.spreadRow_apply, RowOps.matmul_apply]
  rfl

/-- The same with the rows named: whatever the five loaded blocks are known to hold at row `p` (`xa`), at every
    entry of the weights (`xw`) and along the three parameter rows (`xb`, `xs`, `xo`), the stored value at `(p, q)` is
    the row function of those. -/
theorem pay_eq (x0 : Vec Ideal S5000x128 .f32) (x1 : Vec Ideal S128x128 .f32) (x2 x3 x4 : Vec Ideal S1x128 .f32)
    (p : Fin 5000) (q : Fin 128) (xa : Fin 128 → EReal) (xw : Fin 128 → Fin 128 → EReal) (xb xs xo : Fin 128 → EReal)
    (ha : ∀ k, x0 (ix2 p k) = xa k) (hw : ∀ k j, x1 (ix2 k j) = xw k j) (hb : ∀ j, x2 (ix2 (0 : Fin 1) j) = xb j)
    (hs : ∀ j, x3 (ix2 (0 : Fin 1) j) = xs j) (ho : ∀ j, x4 (ix2 (0 : Fin 1) j) = xo j) :
    k0_pay1 (F := Ideal) x0 x1 x2 x3 x4 (ix2 p q) = Cert.RowNorm.out (Cert.RowNorm.act xa xw xb) xs xo q := by
  have ea : (fun k => x0 (ix2 p k)) = xa := funext ha
  have ew : (fun k j => x1 (ix2 k j)) = xw := funext fun k => funext fun j => hw k j
  have eb : (fun j => x2 (ix2 (0 : Fin 1) j)) = xb := funext hb
  have es : (fun j => x3 (ix2 (0 : Fin 1) j)) = xs := funext hs
  have eo : (fun j => x4 (ix2 (0 : Fin 1) j)) = xo := funext ho
  rw [pay_apply, ea, ew, eb, es, eo]

end Cert.KernelIdeal.Payload

end
-- ==== Proof.Blocks.lean ====
/-
  From the ten row blocks to the whole result array.

  The grid has ten points; point `t` is handed rows `5000 t … 5000 t + 4999` of the aggregated features and the
  whole of the weights and of the three one-row parameters, and writes back rows `5000 t … 5000 t + 4999` of the
  result. Because a result row is the row function of the same row of the aggregate, what point `t` writes back is
  block `t` of ONE whole-array function (`result`); the ten blocks cover the 50000 rows (row `r` is in block
  `r / 5000`), so after the run the result array is that function.
-/
import proofs.«126476_j43997644981190_2_alg».proof.Proof.Gen.KernelIdeal.Value
import proofs.«126476_j43997644981190_2_alg».proof.Proof.HostArrays
import proofs.«126476_j43997644981190_2_alg».proof.Proof.Payload
import proofs.«126476_j43997644981190_2_alg».proof.Proof.RowNorm

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The result array as one function of the eight argument arrays: the row function, row by row, of the aggregate
    of the features, row indices, column indices and edge values, with the weights, bias, scale and offset. -/
def result (c : Dev nD) : S50000x128.Idx → EReal :=
  Cert.RowNorm.whole
    (Cert.ReferenceIdeal.Read.val_main_v12 (F := Ideal) (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6)) (m ((c : Thread nD τ).loc main_arg7))

/-- Where each window's block sits at grid point `t`: the feature and result windows at row block `t`, the weights
    and the three parameter rows at their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of ANY 50000-row array `X`, read through the feature window, is row `5000 t + p` of
    `X`: a block's coordinate is the block index times the block size plus the coordinate inside the block. -/
theorem read_rows (t : Fin cfg0.N) (X : S50000x128.Idx → EReal) (p : Fin 5000) (r : Fin 50000)
    (hr : r.val = t.val * 5000 + p.val) (k : Fin 128) :
    ((cfg0.win 0).blk t).view.read (Elt Ideal) X (ix2 p k) = X (ix2 r k) := by
  obtain ⟨h00, h01, -⟩ := index_facts t
  have e : ((cfg0.win 0).blk t).view.emb (ix2 p k) = ix2 r k := funext fun a => Fin.ext (by
    match a with
    | ⟨0, _⟩ => show win0_0.index t (0 : Fin 2) * 5000 + 1 * p.val = r.val; rw [h00, hr]; omega
    | ⟨1, _⟩ => show win0_0.index t (1 : Fin 2) * 128 + 1 * k.val = k.val; rw [h01]; omega)
  show X (((cfg0.win 0).blk t).view.emb (ix2 p k)) = _
  rw [e]

/-- Row `p` of the feature block at point `t` is row `5000 t + p` of the aggregate. -/
theorem features_block (c : Dev nD) (t : Fin cfg0.N) (p : Fin 5000) (r : Fin 50000) (hr : r.val = t.val * 5000 + p.val) (k : Fin 128) :
    (iblk m c 0 t : S5000x128.Idx → EReal) (ix2 p k)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) (ix2 r k) := by
  unfold iblk
  rw [HostArrays.V_aggregate']
  exact read_rows t _ p r hr k

/-- The weights block at any point, at `(k, j)`: the given weight matrix at `(j, k)`. -/
theorem weights_block (c : Dev nD) (t : Fin cfg0.N) (k j : Fin 128) :
    (iblk m c 1 t : S128x128.Idx → EReal) (ix2 k j) = ((m ((c : Thread nD τ).loc main_arg4)) : S128x128.Idx → EReal) (ix2 j k) := by
  obtain ⟨-, -, h10, h11, -⟩ := index_facts t
  have e : ((cfg0.win 1).blk t).view.emb (ix2 k j) = ix2 k j := funext fun a => Fin.ext (by
    match a with
    | ⟨0, _⟩ => show win0_1.index t (0 : Fin 2) * 128 + 1 * k.val = k.val; rw [h10]; omega
    | ⟨1, _⟩ => show win0_1.index t (1 : Fin 2) * 128 + 1 * j.val = j.val; rw [h11]; omega)
  show (V m c main_v15 : S128x128.Idx → EReal) (((cfg0.win 1).blk t).view.emb (ix2 k j)) = _
  rw [e]
  exact HostArrays.V_weights_apply m c k j

/-- The bias block at any point, at `(0, j)`: the bias at `j`. -/
theorem bias_block (c : Dev nD) (t : Fin cfg0.N) (j : Fin 128) :
    (iblk m c 2 t : S1x128.Idx → EReal) (ix2 (0 : Fin 1) j) = ((m ((c : Thread nD τ).loc main_arg5)) : S128.Idx → EReal) (ix1 j) := by
  obtain ⟨-, -, -, -, h20, h21, -⟩ := index_facts t
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [h20]
    | ⟨1, _⟩ => show win0_2.index t (1 : Fin 2) * 128 + 1 * j.val = j.val; rw [h21]; omega)
  show (V m c main_v16 : S1x128.Idx → EReal) (((cfg0.win 2).blk t).view.emb (ix2 (0 : Fin 1) j)) = _
  rw [e]
  exact HostArrays.V_bias_apply m c 0 j

/-- The scale block, likewise. -/
theorem scale_block (c : Dev nD) (t : Fin cfg0.N) (j : Fin 128) :
    (iblk m c 3 t : S1x128.Idx → EReal) (ix2 (0 : Fin 1) j) = ((m ((c : Thread nD τ).loc main_arg6)) : S128.Idx → EReal) (ix1 j) := by
  obtain ⟨-, -, -, -, -, -, h30, h31, -⟩ := index_facts t
  have e : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [h30]
    | ⟨1, _⟩ => show win0_3.index t (1 : Fin 2) * 128 + 1 * j.val = j.val; rw [h31]; omega)
  show (V m c main_v17 : S1x128.Idx → EReal) (((cfg0.win 3).blk t).view.emb (ix2 (0 : Fin 1) j)) = _
  rw [e]
  exact HostArrays.V_scale_apply m c 0 j

/-- The offset block, likewise. -/
theorem offset_block (c : Dev nD) (t : Fin cfg0.N) (j : Fin 128) :
    (iblk m c 4 t : S1x128.Idx → EReal) (ix2 (0 : Fin 1) j) = ((m ((c : Thread nD τ).loc main_arg7)) : S128.Idx → EReal) (ix1 j) := by
  obtain ⟨-, -, -, -, -, -, -, -, h40, h41, -⟩ := index_facts t
  have e : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [h40]
    | ⟨1, _⟩ => show win0_4.index t (1 : Fin 2) * 128 + 1 * j.val = j.val; rw [h41]; omega)
  show (V m c main_v18 : S1x128.Idx → EReal) (((cfg0.win 4).blk t).view.emb (ix2 (0 : Fin 1) j)) = _
  rw [e]
  exact HostArrays.V_offset_apply m c 0 j

/-- The result window is never cut short, so what it writes back of a staging buffer is the buffer. -/
theorem cut_whole (t : Fin cfg0.N) (X : S5000x128.Idx → EReal) : (cfg0.win 5).cut (grid0.coords t) X = X := rfl

/-- Point `t`'s block of ANY 50000-row array `G`, read through the result window: entry `(p, q)` of the block is entry
    `(5000 t + p, q)` of `G`. -/
theorem read_result_rows (t : Fin cfg0.N) (G : S50000x128.Idx → EReal) (p : Fin 5000) (r : Fin 50000)
    (hr : r.val = t.val * 5000 + p.val) (q : Fin 128) :
    ((cfg0.win 5).blk t).view.read (Elt Ideal) G (ix2 p q) = G (ix2 r q) := by
  obtain ⟨-, -, -, -, -, -, -, -, -, -, h50, h51⟩ := index_facts t
  have e : ((cfg0.win 5).blk t).view.emb (ix2 p q) = ix2 r q := funext fun a => Fin.ext (by
    match a with
    | ⟨0, _⟩ => show win0_5.index t (0 : Fin 2) * 5000 + 1 * p.val = r.val; rw [h50, hr]; omega
    | ⟨1, _⟩ => show win0_5.index t (1 : Fin 2) * 128 + 1 * q.val = q.val; rw [h51]; omega)
  show G (((cfg0.win 5).blk t).view.emb (ix2 p q)) = _
  rw [e]

/-- The body's stored value at `(p, q)` of point `t`'s block is entry `(5000 t + p, q)` of `result`: the row function
    of row `p` of the feature block, which is row `5000 t + p` of the aggregate. -/
theorem payload_block (c : Dev nD) (t : Fin cfg0.N) (p : Fin 5000) (r : Fin 50000) (hr : r.val = t.val * 5000 + p.val)
    (q : Fin 128) :
    k0_pay1 (F := Ideal) (iblk m c 0 t) (iblk m c 1 t) (iblk m c 2 t) (iblk m c 3 t) (iblk m c 4 t) (ix2 p q)
      = result m c (ix2 r q) := by
  unfold result
  rw [Cert.RowNorm.whole_ix2]
  unfold Cert.RowNorm.entry
  exact Payload.pay_eq (iblk m c 0 t) (iblk m c 1 t) (iblk m c 2 t) (iblk m c 3 t) (iblk m c 4 t) p q _ _ _ _ _
    (features_block m c t p r hr) (weights_block m c t) (bias_block m c t) (scale_block m c t) (offset_block m c t)

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zeroOffsets]
  simp only [View.ld_unit_zero (S := S5000x128) zeroOffsets, View.ld_unit_zero (S := S128x128) zeroOffsets,
    View.ld_unit_zero (S := S1x128) zeroOffsets]
  refine (cut_whole t _).trans ?_
  have ht : t.val < 10 := lt_of_lt_of_eq t.isLt N_0
  refine funext fun (y : S5000x128.Idx) => ?_
  obtain ⟨p, q, rfl⟩ : ∃ (p : Fin 5000) (q : Fin 128), y = ix2 p q := ⟨y 0, y 1, eq_ix2 y⟩
  exact (payload_block m c t p ⟨t.val * 5000 + p.val, by omega⟩ rfl q).trans
    (read_result_rows t (result m c) p ⟨t.val * 5000 + p.val, by omega⟩ rfl q).symm

/-- An index of the array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- Every index of the result array is in some point's block: row `r` is in block `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, h50, h51⟩ := index_facts t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [h50, ht]; omega
  | ⟨1, _⟩ =>
    show win0_5.index t (1 : Fin 2) * 128 ≤ (i 1).val ∧ (i 1).val < win0_5.index t (1 : Fin 2) * 128 + 128
    rw [h51]; omega

/-- So after the run the result array is `result`. -/
theorem final (c : Dev nD) : (dats m 0 c).arrAt 5 cfg0.N = result m c :=
  (dats m 0 c).arrAt_eq_of_cover 5 (result m c) (fun t _ => flushed_eq m c t) covered

/-- The kernel's run, read: every weakly fair execution terminates with the result array at `result` and the eight
    arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.RefRows.lean ====
/-
  The reference's result, read one operation at a time, is the row function of the aggregated features:
  at `(r, j)` the linear layer's `dot_general` is the sum over the shared axis of row `r` of the aggregate times
  row `j` of the weight matrix (the reference transposes the weights first, and the transposed `(k, j)` entry is
  the `(j, k)` entry), the two host sums along the rows are sums over the 128 columns starting from zero, the
  host's division and reciprocal square root are the extended reals', and the broadcasts read one entry.
-/
import proofs.«126476_j43997644981190_2_alg».proof.Proof.Gen.ReferenceIdeal.Read
import proofs.«126476_j43997644981190_2_alg».proof.Proof.RowNorm

noncomputable section

namespace Cert.ReferenceIdeal.Rows

open Cert.ReferenceIdeal Cert.ReferenceIdeal.Read Idealize.ShloMosaic Idealize.ShloMosaic.ValueIdx

variable (x0 : (⟨S50000x128, .f32⟩ : BufTy).Contents (Elt Ideal)) (x1 x2 : (⟨S1600000, .i32⟩ : BufTy).Contents (Elt Ideal))
  (x3 : (⟨S1600000, .f32⟩ : BufTy).Contents (Elt Ideal)) (x4 : (⟨S128x128, .f32⟩ : BufTy).Contents (Elt Ideal))
  (x5 x6 x7 : (⟨S128, .f32⟩ : BufTy).Contents (Elt Ideal))

/-- The rectified linear layer at `(r, j)`. -/
theorem act_apply (r : Fin 50000) (j : Fin 128) :
    val_main_v18 (F := Ideal) x0 x1 x2 x3 x4 x5 (ix2 r j)
      = Cert.RowNorm.act (fun k => val_main_v12 (F := Ideal) x0 x1 x2 x3 (ix2 r k)) (fun k j' => x4 (ix2 j' k))
          (fun j' => x5 (ix1 j')) j := by
  have e1 : ∀ k : Fin 128, lidx_main_v14 (ix2 r j) k = ix2 r k := fun k => funext fun a => by
    match a with | ⟨0, _⟩ => rfl | ⟨1, _⟩ => rfl
  have e2 : ∀ k : Fin 128, idx_main_v13 (ridx_main_v14 (ix2 r j) k) = ix2 j k := fun k => funext fun a => by
    match a with | ⟨0, _⟩ => rfl | ⟨1, _⟩ => rfl
  have e3 : idx_main_v15 (idx_main_v16 (ix2 r j)) = ix1 j := funext fun a => by match a with | ⟨0, _⟩ => rfl
  rw [val_main_v18_apply, val_main_v17_apply, val_main_v14_apply, val_main_v16_apply, val_main_v15_apply,
    val_main_call0_v0_apply, val_main_call0_cst_apply]
  simp only [val_main_v13_apply, e1, e2, e3, Cert.RowNorm.act, Ideal.maximumf_def, Ideal.addf_def, Ideal.ofBits_def]

/-- The row mean, at `(r, 0)` of the kept-axis column. -/
theorem mean_apply (r : Fin 50000) (u : Fin 1) :
    val_main_v22 (F := Ideal) x0 x1 x2 x3 x4 x5 (ix2 r u)
      = Cert.RowNorm.mean (fun j => val_main_v18 (F := Ideal) x0 x1 x2 x3 x4 x5 (ix2 r j)) := by
  have e : ∀ k : Fin 128, idx_main_v19 (idx_main_v20 (ix2 r u)) k = ix2 r k := fun k => funext fun a => by
    match a with | ⟨0, _⟩ => rfl | ⟨1, _⟩ => rfl
  rw [val_main_v22_apply, val_main_v20_apply, val_main_v19_apply, val_main_v21_apply, val_main_cst_2_apply,
    val_main_cst_1_apply]
  simp only [e, Ideal.hostDivf_def, Ideal.ofBits_def, Ideal.ofBits_zero_f32, zero_add, Cert.RowNorm.mean]

/-- The centred entry, in the reference's first spelling (the one squared for the variance), -/
theorem dev_apply (r : Fin 50000) (j : Fin 128) :
    val_main_v24 (F := Ideal) x0 x1 x2 x3 x4 x5 (ix2 r j)
      = Cert.RowNorm.dev (fun j => val_main_v18 (F := Ideal) x0 x1 x2 x3 x4 x5 (ix2 r j)) j := by
  have e : idx_main_v23 (ix2 r j) = ix2 r (0 : Fin 1) := funext fun a => by
    match a with | ⟨0, _⟩ => rfl | ⟨1, _⟩ => rfl
  rw [val_main_v24_apply, val_main_v23_apply, e, mean_apply]
  simp only [Cert.RowNorm.dev, Ideal.subf_def]

/-- and in its second (the one scaled for the result): the same value. -/
theorem dev_apply' (r : Fin 50000) (j : Fin 128) :
    val_main_v33 (F := Ideal) x0 x1 x2 x3 x4 x5 (ix2 r j)
      = Cert.RowNorm.dev (fun j => val_main_v18 (F := Ideal) x0 x1 x2 x3 x4 x5 (ix2 r j)) j := by
  have e : idx_main_v32 (ix2 r j) = ix2 r (0 : Fin 1) := funext fun a => by
    match a with | ⟨0, _⟩ => rfl | ⟨1, _⟩ => rfl
  rw [val_main_v33_apply, val_main_v32_apply, e, mean_apply]
  simp only [Cert.RowNorm.dev, Ideal.subf_def]

/-- The reciprocal square root of the variance plus the small constant, at `(r, 0)`. -/
theorem invStd_apply (r : Fin 50000) (u : Fin 1) :
    val_main_v37 (F := Ideal) x0 x1 x2 x3 x4 x5 (ix2 r u)
      = Cert.RowNorm.invStd (fun j => val_main_v18 (F := Ideal) x0 x1 x2 x3 x4 x5 (ix2 r j)) := by
  have e : ∀ k : Fin 128, idx_main_v26 (idx_main_v27 (ix2 r u)) k = ix2 r k := fun k => funext fun a => by
    match a with | ⟨0, _⟩ => rfl | ⟨1, _⟩ => rfl
  have hsum : (∑ k : Fin 128, val_main_v25 (F := Ideal) x0 x1 x2 x3 x4 x5 (idx_main_v26 (idx_main_v27 (ix2 r u)) k))
      = ∑ k : Fin 128, Cert.RowNorm.dev (fun j => val_main_v18 (F := Ideal) x0 x1 x2 x3 x4 x5 (ix2 r j)) k
          * Cert.RowNorm.dev (fun j => val_main_v18 (F := Ideal) x0 x1 x2 x3 x4 x5 (ix2 r j)) k :=
    Finset.sum_congr rfl fun k _ => by rw [e k, val_main_v25_apply, dev_apply]; rfl
  rw [val_main_v37_apply, val_main_v31_apply, val_main_v29_apply, val_main_v27_apply, val_main_v26_apply,
    val_main_v28_apply, val_main_cst_4_apply, val_main_v30_apply, val_main_cst_5_apply, val_main_cst_3_apply, hsum]
  show Ideal.rsqrt (Ideal.div (Ideal.ofBits .f32 0x00000000#32 + _) _ + _) = _
  rw [Ideal.ofBits_zero_f32, zero_add]
  rfl

/-- The reference's result at `(r, j)`: the row function of the rectified row. -/
theorem out_apply (r : Fin 50000) (j : Fin 128) :
    val_main_v42 (F := Ideal) x0 x1 x2 x3 x4 x5 x6 x7 (ix2 r j)
      = Cert.RowNorm.out (fun j => val_main_v18 (F := Ideal) x0 x1 x2 x3 x4 x5 (ix2 r j)) (fun j' => x6 (ix1 j'))
          (fun j' => x7 (ix1 j')) j := by
  have e38 : idx_main_v38 (ix2 r j) = ix2 r (0 : Fin 1) := funext fun a => by
    match a with | ⟨0, _⟩ => rfl | ⟨1, _⟩ => rfl
  have e35 : idx_main_v34 (idx_main_v35 (ix2 r j)) = ix1 j := funext fun a => by match a with | ⟨0, _⟩ => rfl
  have e41 : idx_main_v40 (idx_main_v41 (ix2 r j)) = ix1 j := funext fun a => by match a with | ⟨0, _⟩ => rfl
  rw [val_main_v42_apply, val_main_v39_apply, val_main_v36_apply, dev_apply', val_main_v38_apply, e38, invStd_apply,
    val_main_v35_apply, val_main_v34_apply, e35, val_main_v41_apply, val_main_v40_apply, e41]
  simp only [Cert.RowNorm.out, Ideal.addf_def, Ideal.mulf_def]

/-- The reference's result array is the row function of the aggregated features, of the weights as given, and of
    the bias, scale and offset. -/
theorem result_eq :
    val_main_v42 (F := Ideal) x0 x1 x2 x3 x4 x5 x6 x7
      = Cert.RowNorm.whole (val_main_v12 (F := Ideal) x0 x1 x2 x3) x4 x5 x6 x7 := by
  funext i
  obtain ⟨r, j, rfl⟩ : ∃ (r : Fin 50000) (j : Fin 128), i = ix2 r j := ⟨i 0, i 1, eq_ix2 i⟩
  rw [out_apply, Cert.RowNorm.whole_ix2]
  unfold Cert.RowNorm.entry
  exact congrArg (fun a => Cert.RowNorm.out a (fun j' => x6 (ix1 j')) (fun j' => x7 (ix1 j')) j)
    (funext fun j' => act_apply x0 x1 x2 x3 x4 x5 r j')

end Cert.ReferenceIdeal.Rows

end
-- ==== Proof.lean ====
/-
  The two programs compute one function on the extended reals.

  Both aggregate the node features along the edges (each edge gathers its source node's feature row, scales it by the
  edge value and adds it into its destination node's row), apply a linear layer and the rectifier, and normalize each
  row: subtract the row's mean, multiply by a per-feature scale and by the reciprocal square root of the row's biased
  variance plus a small constant, and add a per-feature offset.

  They differ in three ways, none of which changes the value on the extended reals. The kernel's program rounds the
  features to a narrower float format before gathering and widens them after, and rounds both operands of the matrix
  product: a change of format is the identity there. It computes the rows in ten blocks of 5000 where the reference
  computes the array at once: a result row depends on the same row of the aggregate only. And it multiplies by the
  transposed weights and sums along rows inside the kernel where the reference uses the host's product and sums: all
  of them are the same finite sums.

  The pieces: `RowNorm` states the row function and the whole result array; `RefRows` shows the reference's result is
  that array; `Payload` shows the kernel body's stored value is the row function of its loaded blocks; `HostArrays`
  reads the arrays the kernel is launched on; `Blocks` goes from the ten written-back blocks to the whole array. The
  three frames are the generated ones (the reference's is its generated run with the result dropped), and the
  idealization rewrote nothing, so there is nothing to preserve.
-/
import proofs.«126476_j43997644981190_2_alg».proof.Defs
import proofs.«126476_j43997644981190_2_alg».proof.Proof.Gen.Kernel
import proofs.«126476_j43997644981190_2_alg».proof.Proof.Gen.Kernel.Skeleton
import proofs.«126476_j43997644981190_2_alg».proof.Proof.Gen.Kernel.Launch
import proofs.«126476_j43997644981190_2_alg».proof.Proof.Gen.Kernel.Points
import proofs.«126476_j43997644981190_2_alg».proof.Proof.Gen.Kernel.Frame
import proofs.«126476_j43997644981190_2_alg».proof.Proof.Gen.KernelIdeal
import proofs.«126476_j43997644981190_2_alg».proof.Proof.Gen.KernelIdeal.Skeleton
import proofs.«126476_j43997644981190_2_alg».proof.Proof.Gen.KernelIdeal.Launch
import proofs.«126476_j43997644981190_2_alg».proof.Proof.Gen.KernelIdeal.Points
import proofs.«126476_j43997644981190_2_alg».proof.Proof.Gen.KernelIdeal.Frame
import proofs.«126476_j43997644981190_2_alg».proof.Proof.Gen.ReferenceIdeal
import proofs.«126476_j43997644981190_2_alg».proof.Proof.Gen.Pre_finite_inputs
import proofs.«126476_j43997644981190_2_alg».proof.Proof.Gen.KernelIdeal.Value
import proofs.«126476_j43997644981190_2_alg».proof.Proof.Gen.ReferenceIdeal.Run
import proofs.«126476_j43997644981190_2_alg».proof.Proof.Gen.ReferenceIdeal.Read
import proofs.«126476_j43997644981190_2_alg».proof.Proof.Blocks
import proofs.«126476_j43997644981190_2_alg».proof.Proof.RefRows
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments, the kernel's result array ends at the row function of the
    aggregate (`Blocks.run`) and the reference's at its own result term, which is the same array (`Rows.result_eq`). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v42_eq, Cert.ReferenceIdeal.Rows.result_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
